-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x16 : Shape := ⟨3, ![4, 16384, 16]⟩
abbrev S64x16 : Shape := ⟨2, ![64, 16]⟩
abbrev S1x1x16x1 : Shape := ⟨4, ![1, 1, 16, 1]⟩
abbrev S_ : Shape := ⟨0, ![]⟩

class Facts : Prop where
  bcast_S_S4x16384x16 : S_.BroadcastsInDim S4x16384x16 (![] : Fin 0 → Fin S4x16384x16.rank)
  reducesTo_S4x16384x16_S_d0_1_2 : S4x16384x16.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_
  bcast_S_S1x1x16x1 : S_.BroadcastsInDim S1x1x16x1 (![] : Fin 0 → Fin S1x1x16x1.rank)
  reducesTo_S1x1x16x1_S_d0_1_2_3 : S1x1x16x1.ReducesTo [0, 1, 2, 3] S_

variable [Facts]

def fn {F : FTy → Type} [FloatOps F] (main_arg0 : FVec F S4x16384x16 .f32) (main_arg1 : FVec F S64x16 .f32) (main_arg2 : FVec F S1x1x16x1 .f32) : IVec S_ 1 :=
  let main_v0 : FVec F S4x16384x16 .f32 := Host.absf main_arg0
  let main_cst : FVec F S_ .f32 := constant S_ .f32 0x7F800000#32
  let main_v1 : FVec F S4x16384x16 .f32 := broadcastInDim S4x16384x16 ![] bcast_S_S4x16384x16 main_cst
  let main_v2 : IVec S4x16384x16 1 := cmpf .olt main_v0 main_v1
  let main_c : IVec S_ 1 := constantI S_ 1 1#1
  let main_v3 : IVec S_ 1 := (fun x v => Host.reduce IntOp.andi x v reducesTo_S4x16384x16_S_d0_1_2 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S1x1x16x1 .f32 := Host.absf main_arg2
  let main_cst_2 : FVec F S_ .f32 := constant S_ .f32 0x7F800000#32
  let main_v10 : FVec F S1x1x16x1 .f32 := broadcastInDim S1x1x16x1 ![] bcast_S_S1x1x16x1 main_cst_2
  let main_v11 : IVec S1x1x16x1 1 := cmpf .olt main_v9 main_v10
  let main_c_3 : IVec S_ 1 := constantI S_ 1 1#1
  let main_v12 : IVec S_ 1 := (fun x v => Host.reduce IntOp.andi x v reducesTo_S1x1x16x1_S_d0_1_2_3 h_S_) main_v11 main_c_3
  let main_v13 : IVec S_ 1 := andi main_v8 main_v12
  main_v13
-- ==== Kernel.lean ====
abbrev S4x16384x16 : Shape := ⟨3, ![4, 16384, 16]⟩
abbrev S64x16 : Shape := ⟨2, ![64, 16]⟩
abbrev S1x1x16x1 : Shape := ⟨4, ![1, 1, 16, 1]⟩
abbrev S16 : Shape := ⟨1, ![16]⟩
abbrev S1x16 : Shape := ⟨2, ![1, 16]⟩
abbrev S4x16384x64 : Shape := ⟨3, ![4, 16384, 64]⟩
abbrev S1x2048x16 : Shape := ⟨3, ![1, 2048, 16]⟩
abbrev S1x2048x64 : Shape := ⟨3, ![1, 2048, 64]⟩
abbrev S2048x16 : Shape := ⟨2, ![2048, 16]⟩
abbrev S2048x64 : Shape := ⟨2, ![2048, 64]⟩
abbrev S1 : Shape := ⟨1, ![1]⟩
abbrev S64x1 : Shape := ⟨2, ![64, 1]⟩
abbrev S64 : Shape := ⟨1, ![64]⟩
abbrev S2048x1 : Shape := ⟨2, ![2048, 1]⟩
abbrev S1x64 : Shape := ⟨2, ![1, 64]⟩

abbrev nBuf : Space → Nat
  | .hbm => 7
  | .vmem => 8
  | .smem => 0
  | _ => 0

abbrev bufTy : (tb : Table) → Fin (tcTables nBuf tb) → BufTy
  | .hbm, ⟨0, _⟩ => ⟨S4x16384x16, .f32⟩
  | .hbm, ⟨1, _⟩ => ⟨S64x16, .f32⟩
  | .hbm, ⟨2, _⟩ => ⟨S1x1x16x1, .f32⟩
  | .hbm, ⟨3, _⟩ => ⟨S16, .f32⟩
  | .hbm, ⟨4, _⟩ => ⟨S1x16, .f32⟩
  | .hbm, ⟨5, _⟩ => ⟨S4x16384x64, .f32⟩
  | .hbm, ⟨6, _⟩ => ⟨S4x16384x16, .f32⟩
  | .local _ .vmem, ⟨0, _⟩ => ⟨S1x2048x16, .f32⟩
  | .local _ .vmem, ⟨1, _⟩ => ⟨S1x2048x16, .f32⟩
  | .local _ .vmem, ⟨2, _⟩ => ⟨S64x16, .f32⟩
  | .local _ .vmem, ⟨3, _⟩ => ⟨S1x16, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x16, .f32⟩
  | .local _ .vmem, ⟨7, _⟩ => ⟨S1x2048x16, .f32⟩
  | _, _ => ⟨S4x16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x1x16x1_S16 : S1x1x16x1.ShapeCasts S16
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S16 : S1x16.ShapeCasts S16
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  broadcasts_S1x16_S2048x16 : S1x16.Broadcasts S2048x16
  shapeCasts_S2048x16_S1x2048x16 : S2048x16.ShapeCasts S1x2048x16
  inb_S64x16_S64x16_0_0 : ∀ a, (![0, 0] : Fin 2 → Nat) a + S64x16.size a ≤ S64x16.size a
  h_S64x16 : 0 < S64x16.numel
  slices_S16_o0_S1 : S16.Slices ![0] S1
  inpos_S1_p0 : ∀ a, (![0] : Fin 1 → Nat) a < S1.size a
  slices_S64x16_o0_0_S64x1 : S64x16.Slices ![0, 0] S64x1
  shapeCasts_S64x1_S64 : S64x1.ShapeCasts S64
  slices_S2048x16_o0_0_S2048x1 : S2048x16.Slices ![0, 0] S2048x1
  shapeCasts_S64_S1x64 : S64.ShapeCasts S1x64
  broadcasts_S2048x1_S2048x64 : S2048x1.Broadcasts S2048x64
  broadcasts_S1x64_S2048x64 : S1x64.Broadcasts S2048x64
  slices_S16_o1_S1 : S16.Slices ![1] S1
  slices_S64x16_o0_1_S64x1 : S64x16.Slices ![0, 1] S64x1
  slices_S2048x16_o0_1_S2048x1 : S2048x16.Slices ![0, 1] S2048x1
  slices_S16_o2_S1 : S16.Slices ![2] S1
  slices_S64x16_o0_2_S64x1 : S64x16.Slices ![0, 2] S64x1
  slices_S2048x16_o0_2_S2048x1 : S2048x16.Slices ![0, 2] S2048x1
  slices_S16_o3_S1 : S16.Slices ![3] S1
  slices_S64x16_o0_3_S64x1 : S64x16.Slices ![0, 3] S64x1
  slices_S2048x16_o0_3_S2048x1 : S2048x16.Slices ![0, 3] S2048x1
  slices_S16_o4_S1 : S16.Slices ![4] S1
  slices_S64x16_o0_4_S64x1 : S64x16.Slices ![0, 4] S64x1
  slices_S2048x16_o0_4_S2048x1 : S2048x16.Slices ![0, 4] S2048x1
  slices_S16_o5_S1 : S16.Slices ![5] S1
  slices_S64x16_o0_5_S64x1 : S64x16.Slices ![0, 5] S64x1
  slices_S2048x16_o0_5_S2048x1 : S2048x16.Slices ![0, 5] S2048x1
  slices_S16_o6_S1 : S16.Slices ![6] S1
  slices_S64x16_o0_6_S64x1 : S64x16.Slices ![0, 6] S64x1
  slices_S2048x16_o0_6_S2048x1 : S2048x16.Slices ![0, 6] S2048x1
  slices_S16_o7_S1 : S16.Slices ![7] S1
  slices_S64x16_o0_7_S64x1 : S64x16.Slices ![0, 7] S64x1
  slices_S2048x16_o0_7_S2048x1 : S2048x16.Slices ![0, 7] S2048x1
  slices_S16_o8_S1 : S16.Slices ![8] S1
  slices_S64x16_o0_8_S64x1 : S64x16.Slices ![0, 8] S64x1
  slices_S2048x16_o0_8_S2048x1 : S2048x16.Slices ![0, 8] S2048x1
  slices_S16_o9_S1 : S16.Slices ![9] S1
  slices_S64x16_o0_9_S64x1 : S64x16.Slices ![0, 9] S64x1
  slices_S2048x16_o0_9_S2048x1 : S2048x16.Slices ![0, 9] S2048x1
  slices_S16_o10_S1 : S16.Slices ![10] S1
  slices_S64x16_o0_10_S64x1 : S64x16.Slices ![0, 10] S64x1
  slices_S2048x16_o0_10_S2048x1 : S2048x16.Slices ![0, 10] S2048x1
  slices_S16_o11_S1 : S16.Slices ![11] S1
  slices_S64x16_o0_11_S64x1 : S64x16.Slices ![0, 11] S64x1
  slices_S2048x16_o0_11_S2048x1 : S2048x16.Slices ![0, 11] S2048x1
  slices_S16_o12_S1 : S16.Slices ![12] S1
  slices_S64x16_o0_12_S64x1 : S64x16.Slices ![0, 12] S64x1
  slices_S2048x16_o0_12_S2048x1 : S2048x16.Slices ![0, 12] S2048x1
  slices_S16_o13_S1 : S16.Slices ![13] S1
  slices_S64x16_o0_13_S64x1 : S64x16.Slices ![0, 13] S64x1
  slices_S2048x16_o0_13_S2048x1 : S2048x16.Slices ![0, 13] S2048x1
  slices_S16_o14_S1 : S16.Slices ![14] S1
  slices_S64x16_o0_14_S64x1 : S64x16.Slices ![0, 14] S64x1
  slices_S2048x16_o0_14_S2048x1 : S2048x16.Slices ![0, 14] S2048x1
  slices_S16_o15_S1 : S16.Slices ![15] S1
  slices_S64x16_o0_15_S64x1 : S64x16.Slices ![0, 15] S64x1
  slices_S2048x16_o0_15_S2048x1 : S2048x16.Slices ![0, 15] S2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x16.size a ≤ S4x16384x16.size a
  hwx0_0 : ∀ i : grid0.Coords, EltTy.bits .f32 = 32 ∨ (Rect.block (s := S4x16384x16) S1x2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S4x16384x64.size a
  hwx0_3 : ∀ i : grid0.Coords, EltTy.bits .f32 = 32 ∨ (Rect.block (s := S4x16384x64) S1x2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x16.size a ≤ S4x16384x16.size a
  hwx0_4 : ∀ i : grid0.Coords, EltTy.bits .f32 = 32 ∨ (Rect.block (s := S4x16384x16) S1x2048x16.size (cc0_transform_4 i) (hinb0_4 i)).WholeWords (EltTy.packing .f32)

variable [Facts₀]

abbrev win0_0 : Pipeline.Window sig grid0 :=
  Pipeline.Window.ofSpec (Memref.whole main_arg0) S1x2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x2048x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16384x16 : Shape := ⟨3, ![4, 16384, 16]⟩
abbrev S64x16 : Shape := ⟨2, ![64, 16]⟩
abbrev S1x1x16x1 : Shape := ⟨4, ![1, 1, 16, 1]⟩
abbrev S16 : Shape := ⟨1, ![16]⟩
abbrev S1x1x16 : Shape := ⟨3, ![1, 1, 16]⟩
abbrev S16x1 : Shape := ⟨2, ![16, 1]⟩
abbrev S16x64 : Shape := ⟨2, ![16, 64]⟩
abbrev S4x16384x16x1 : Shape := ⟨4, ![4, 16384, 16, 1]⟩
abbrev S1x1x16x64 : Shape := ⟨4, ![1, 1, 16, 64]⟩
abbrev S4x16384x16x64 : Shape := ⟨4, ![4, 16384, 16, 64]⟩
abbrev S_ : Shape := ⟨0, ![]⟩
abbrev S4x16384x64 : Shape := ⟨3, ![4, 16384, 64]⟩

abbrev nBuf : Space → Nat
  | .hbm => 19
  | .vmem => 0
  | .smem => 0
  | _ => 0

abbrev bufTy : (tb : Table) → Fin (tcTables nBuf tb) → BufTy
  | .hbm, ⟨0, _⟩ => ⟨S4x16384x16, .f32⟩
  | .hbm, ⟨1, _⟩ => ⟨S64x16, .f32⟩
  | .hbm, ⟨2, _⟩ => ⟨S1x1x16x1, .f32⟩
  | .hbm, ⟨3, _⟩ => ⟨S16, .f32⟩
  | .hbm, ⟨4, _⟩ => ⟨S1x1x16, .f32⟩
  | .hbm, ⟨5, _⟩ => ⟨S4x16384x16, .f32⟩
  | .hbm, ⟨6, _⟩ => ⟨S4x16384x16, .f32⟩
  | .hbm, ⟨7, _⟩ => ⟨S16x1, .f32⟩
  | .hbm, ⟨8, _⟩ => ⟨S16x64, .f32⟩
  | .hbm, ⟨9, _⟩ => ⟨S16x64, .f32⟩
  | .hbm, ⟨10, _⟩ => ⟨S16x64, .f32⟩
  | .hbm, ⟨11, _⟩ => ⟨S4x16384x16x1, .f32⟩
  | .hbm, ⟨12, _⟩ => ⟨S1x1x16x64, .f32⟩
  | .hbm, ⟨13, _⟩ => ⟨S4x16384x16x64, .f32⟩
  | .hbm, ⟨14, _⟩ => ⟨S4x16384x16x64, .f32⟩
  | .hbm, ⟨15, _⟩ => ⟨S4x16384x16x64, .f32⟩
  | .hbm, ⟨16, _⟩ => ⟨S4x16384x16x64, .f32⟩
  | .hbm, ⟨17, _⟩ => ⟨S_, .f32⟩
  | .hbm, ⟨18, _⟩ => ⟨S4x16384x64, .f32⟩
  | _, _ => ⟨S4x16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  shapeCasts_S1x1x16x1_S16 : S1x1x16x1.ShapeCasts S16
  bcast_S16_S1x1x16_2 : S16.BroadcastsInDim S1x1x16 (![2] : Fin 1 → Fin S1x1x16.rank)
  bcast_S1x1x16_S4x16384x16_0_1_2 : S1x1x16.BroadcastsInDim S4x16384x16 (![0, 1, 2] : Fin 3 → Fin S4x16384x16.rank)
  bcast_S16_S16x1_0 : S16.BroadcastsInDim S16x1 (![0] : Fin 1 → Fin S16x1.rank)
  transposes_S64x16_S16x64_1_0 : S64x16.Transposes [1, 0] S16x64
  bcast_S16x1_S16x64_0_1 : S16x1.BroadcastsInDim S16x64 (![0, 1] : Fin 2 → Fin S16x64.rank)
  bcast_S4x16384x16_S4x16384x16x1_0_1_2 : S4x16384x16.BroadcastsInDim S4x16384x16x1 (![0, 1, 2] : Fin 3 → Fin S4x16384x16x1.rank)
  bcast_S16x64_S1x1x16x64_2_3 : S16x64.BroadcastsInDim S1x1x16x64 (![2, 3] : Fin 2 → Fin S1x1x16x64.rank)
  bcast_S4x16384x16x1_S4x16384x16x64_0_1_2_3 : S4x16384x16x1.BroadcastsInDim S4x16384x16x64 (![0, 1, 2, 3] : Fin 4 → Fin S4x16384x16x64.rank)
  bcast_S1x1x16x64_S4x16384x16x64_0_1_2_3 : S1x1x16x64.BroadcastsInDim S4x16384x16x64 (![0, 1, 2, 3] : Fin 4 → Fin S4x16384x16x64.rank)
  reducesTo_S4x16384x16x64_S4x16384x64_d2 : S4x16384x16x64.ReducesTo [2] S4x16384x64
  h_S_ : 0 < S_.numel

variable [Facts₀]

class Facts : Prop extends Facts₀ where

variable [Facts]
-- ==== Proof.SquaredDistance.lean ====
/-
  Pairwise squared distances to scaled centres, on the extended reals.

  For a row vector `h` of 16 features, a scale vector `s` and a centre `c`, the quantity is
    ∑ d, (h d − s d · c d)².
  This module holds what does not depend on any program:
  • three readings of re-laid vectors at coordinates: a column `[a, 1]` spread over `b` columns, a column `[a, 1]`
    flattened to `[a]`, and one entry of a vector picked out as a scalar;
  • `featTerm`: for ONE feature `d`, the matrix over (row, centre) of the squared difference, built from a block of
    rows, the scale vector and the matrix of centres by taking column `d` of each, spreading the rows' column across
    the centres and the scaled centres' column down the rows — and `featTerm_apply`, its value at (row, centre);
  • `chain_eq_sum`: sixteen terms added one after another onto zero are zero plus their sum. On the extended reals
    addition is commutative and associative, so this needs no finiteness.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SquaredDistance

open Idealize.ShloMosaic Idealize.ShloMosaic.ValueIdx

/-! ## Re-laid vectors read at coordinates -/

section Layout
variable {α : Type}

/-- A column `[a, 1]` spread to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` flattened to `[a]` reads, at `i`, the column's entry `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Entry `d` of a vector, cut out as a one-element vector and then read as a scalar, is the vector at `d`. -/
theorem extractAt_slice_apply {n : ℕ} (d : ℕ) (hd : d < n) (s : (⟨1, ![n]⟩ : Shape).Idx → α)
    (h : (⟨1, ![n]⟩ : Shape).Slices ![d] ⟨1, ![1]⟩)
    (hp : ∀ a, (![0] : Fin 1 → ℕ) a < (⟨1, ![1]⟩ : Shape).size a) :
    extractAt ![0] (extractStridedSlice ⟨1, ![1]⟩ ![d] s h) hp = s (ix1 ⟨d, hd⟩) := by
  unfold extractAt extractStridedSlice
  exact congrArg s (funext fun a => Fin.ext (by match a with | ⟨0, _⟩ => exact Nat.add_zero d))

end Layout

/-! ## One feature's squared differences -/

/-- For feature `d`: column `d` of the rows `hx` spread across the 64 centres, minus entry `d` of the scale `s` times
    column `d` of the centres `cen` laid as a row and spread down the 2048 rows; the difference squared. -/
def featTerm (d : ℕ) (s : FVec Ideal ⟨1, ![16]⟩ .f32) (hx : FVec Ideal ⟨2, ![2048, 16]⟩ .f32)
    (cen : FVec Ideal ⟨2, ![64, 16]⟩ .f32)
    (h1 : (⟨1, ![16]⟩ : Shape).Slices ![d] ⟨1, ![1]⟩)
    (h2 : (⟨2, ![64, 16]⟩ : Shape).Slices ![0, d] ⟨2, ![64, 1]⟩)
    (h3 : (⟨2, ![2048, 16]⟩ : Shape).Slices ![0, d] ⟨2, ![2048, 1]⟩)
    (hp : ∀ a, (![0] : Fin 1 → ℕ) a < (⟨1, ![1]⟩ : Shape).size a)
    (c1 : (⟨2, ![64, 1]⟩ : Shape).ShapeCasts ⟨1, ![64]⟩)
    (c2 : (⟨1, ![64]⟩ : Shape).ShapeCasts ⟨2, ![1, 64]⟩)
    (b1 : (⟨2, ![2048, 1]⟩ : Shape).Broadcasts ⟨2, ![2048, 64]⟩)
    (b2 : (⟨2, ![1, 64]⟩ : Shape).Broadcasts ⟨2, ![2048, 64]⟩) : FVec Ideal ⟨2, ![2048, 64]⟩ .f32 :=
  mulf
    (subf (broadcastTo ⟨2, ![2048, 64]⟩ (extractStridedSlice ⟨2, ![2048, 1]⟩ ![0, d] hx h3) b1)
      (broadcastTo ⟨2, ![2048, 64]⟩
        (shapeCast ⟨2, ![1, 64]⟩
          (mulf (broadcast ⟨1, ![64]⟩ (extractAt ![0] (extractStridedSlice ⟨1, ![1]⟩ ![d] s h1) hp))
            (shapeCast ⟨1, ![64]⟩ (extractStridedSlice ⟨2, ![64, 1]⟩ ![0, d] cen h2) c1)) c2) b2))
    (subf (broadcastTo ⟨2, ![2048, 64]⟩ (extractStridedSlice ⟨2, ![2048, 1]⟩ ![0, d] hx h3) b1)
      (broadcastTo ⟨2, ![2048, 64]⟩
        (shapeCast ⟨2, ![1, 64]⟩
          (mulf (broadcast ⟨1, ![64]⟩ (extractAt ![0] (extractStridedSlice ⟨1, ![1]⟩ ![d] s h1) hp))
            (shapeCast ⟨1, ![64]⟩ (extractStridedSlice ⟨2, ![64, 1]⟩ ![0, d] cen h2) c1)) c2) b2))

/-- At row `r` and centre `k`, feature `d`'s term is `(hx r d − s d · cen k d)²`. -/
theorem featTerm_apply (d : ℕ) (hd : d < 16) (s : FVec Ideal ⟨1, ![16]⟩ .f32) (hx : FVec Ideal ⟨2, ![2048, 16]⟩ .f32)
    (cen : FVec Ideal ⟨2, ![64, 16]⟩ .f32)
    (h1 : (⟨1, ![16]⟩ : Shape).Slices ![d] ⟨1, ![1]⟩)
    (h2 : (⟨2, ![64, 16]⟩ : Shape).Slices ![0, d] ⟨2, ![64, 1]⟩)
    (h3 : (⟨2, ![2048, 16]⟩ : Shape).Slices ![0, d] ⟨2, ![2048, 1]⟩)
    (hp : ∀ a, (![0] : Fin 1 → ℕ) a < (⟨1, ![1]⟩ : Shape).size a)
    (c1 : (⟨2, ![64, 1]⟩ : Shape).ShapeCasts ⟨1, ![64]⟩)
    (c2 : (⟨1, ![64]⟩ : Shape).ShapeCasts ⟨2, ![1, 64]⟩)
    (b1 : (⟨2, ![2048, 1]⟩ : Shape).Broadcasts ⟨2, ![2048, 64]⟩)
    (b2 : (⟨2, ![1, 64]⟩ : Shape).Broadcasts ⟨2, ![2048, 64]⟩) (r : Fin 2048) (k : Fin 64) :
    featTerm d s hx cen h1 h2 h3 hp c1 c2 b1 b2 (ix2 r k)
      = (hx (ix2 r ⟨d, hd⟩) - s (ix1 ⟨d, hd⟩) * cen (ix2 k ⟨d, hd⟩))
        * (hx (ix2 r ⟨d, hd⟩) - s (ix1 ⟨d, hd⟩) * cen (ix2 k ⟨d, hd⟩)) := by
  have e : (subf (broadcastTo ⟨2, ![2048, 64]⟩ (extractStridedSlice ⟨2, ![2048, 1]⟩ ![0, d] hx h3) b1)
      (broadcastTo ⟨2, ![2048, 64]⟩
        (shapeCast ⟨2, ![1, 64]⟩
          (mulf (broadcast ⟨1, ![64]⟩ (extractAt ![0] (extractStridedSlice ⟨1, ![1]⟩ ![d] s h1) hp))
            (shapeCast ⟨1, ![64]⟩ (extractStridedSlice ⟨2, ![64, 1]⟩ ![0, d] cen h2) c1)) c2) b2)) (ix2 r k)
      = hx (ix2 r ⟨d, hd⟩) - s (ix1 ⟨d, hd⟩) * cen (ix2 k ⟨d, hd⟩) := by
    rw [subf_apply, broadcastTo_a1_ab_apply, broadcastTo_1b_ab_apply,
      slice2_axis1_apply d hx h3 r (0 : Fin 1) ⟨d, hd⟩ rfl,
      shapeCast_a_1a_apply, mulf_apply, broadcast_apply, extractAt_slice_apply d hd, shapeCast_a1_a_apply,
      slice2_axis1_apply d cen h2 k (0 : Fin 1) ⟨d, hd⟩ rfl]
  unfold featTerm
  rw [mulf_apply, e]

/-! ## Sixteen terms added in turn onto zero -/

/-- Adding sixteen extended reals one after another onto zero gives zero plus their sum. -/
theorem chain_eq_sum (f : Fin 16 → Ideal .f32) :
    0 + f 0 + f 1 + f 2 + f 3 + f 4 + f 5 + f 6 + f 7 + f 8 + f 9 + f 10 + f 11 + f 12 + f 13 + f 14 + f 15
      = 0 + ∑ d : Fin 16, f d := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  simp only [zero_add, add_assoc]
  rfl

end Cert.SquaredDistance

end
-- ==== Proof.KernelBlock.lean ====
/-
  What one grid point leaves in its two output blocks, as functions of the three blocks it loads: a block of rows
  `P0 : [1, 2048, 16]`, the centres `P1 : [64, 16]` and the scale `P2 : [1, 16]`.

  The body first forms the scaled rows `h r d = P0 (0, r, d) · P2 (0, d)` and stores them as the second output block.
  For the first output it starts from the zero matrix over (row, centre) and, for d = 0, …, 15 in turn, adds feature
  `d`'s squared differences `(h r d − P2 (0, d) · P1 (k, d))²`. So the block of distances at (r, k) is sixteen terms
  added one after another onto zero, which is zero plus their sum over d (addition on the extended reals is
  commutative and associative; no finiteness is used).
-/
import proofs.«138917_j71038759076230_2_alg».proof.Proof.Gen.KernelIdeal.Frame
import proofs.«138917_j71038759076230_2_alg».proof.Proof.SquaredDistance

noncomputable section

open scoped BigOperators

namespace Cert.KernelIdeal.Block

open Cert.KernelIdeal Cert.KernelIdeal.Gen Idealize.ShloMosaic Idealize.ShloMosaic.ValueIdx Cert.SquaredDistance

variable (P0 : Vec Ideal S1x2048x16 .f32) (P1 : Vec Ideal S64x16 .f32) (P2 : Vec Ideal S1x16 .f32)

/-! ## The scale and the scaled rows -/

/-- The scale laid as a vector: entry `d` is `P2 (0, d)`. -/
theorem scale_apply (d : Fin 16) : k0_pay1 P2 (ix1 d) = P2 (ix2 (0 : Fin 1) d) := by
  unfold k0_pay1
  exact shapeCast_1a_a_apply P2 shapeCasts_S1x16_S16 d

/-- The scaled rows: entry `(r, d)` is `P0 (0, r, d) · P2 (0, d)`. -/
theorem scaledRows_apply (r : Fin 2048) (d : Fin 16) :
    k0_pay2 P2 P0 (ix2 r d) = P0 (ix3 (0 : Fin 1) r d) * P2 (ix2 (0 : Fin 1) d) := by
  unfold k0_pay2
  rw [mulf_apply, shapeCast_1ab_ab_apply, broadcastTo_1b_ab_apply, shapeCast_a_1a_apply, scale_apply]

/-! ## The distances' block: sixteen features added in turn -/

/-- Feature `d`'s squared differences over the loaded blocks. -/
abbrev feat (d : ℕ) (h1 : S16.Slices ![d] S1) (h2 : S64x16.Slices ![0, d] S64x1)
    (h3 : S2048x16.Slices ![0, d] S2048x1) : FVec Ideal S2048x64 .f32 :=
  featTerm d (k0_pay1 P2) (k0_pay2 P2 P0) P1 h1 h2 h3 inpos_S1_p0 shapeCasts_S64x1_S64 shapeCasts_S64_S1x64
    broadcasts_S2048x1_S2048x64 broadcasts_S1x64_S2048x64

/-- The accumulator after the last feature: the zero matrix with features 0, …, 15 added in this order. -/
def accAll : FVec Ideal S2048x64 .f32 :=
  (addf (addf (addf (addf (addf (addf (addf (addf (addf (addf (addf (addf (addf (addf (addf (addf (broadcast S2048x64 (Scalar.ofBits .f32 0x00000000#32 : Ideal .f32))
      (feat P0 P1 P2 0 slices_S16_o0_S1 slices_S64x16_o0_0_S64x1 slices_S2048x16_o0_0_S2048x1))
      (feat P0 P1 P2 1 slices_S16_o1_S1 slices_S64x16_o0_1_S64x1 slices_S2048x16_o0_1_S2048x1))
      (feat P0 P1 P2 2 slices_S16_o2_S1 slices_S64x16_o0_2_S64x1 slices_S2048x16_o0_2_S2048x1))
      (feat P0 P1 P2 3 slices_S16_o3_S1 slices_S64x16_o0_3_S64x1 slices_S2048x16_o0_3_S2048x1))
      (feat P0 P1 P2 4 slices_S16_o4_S1 slices_S64x16_o0_4_S64x1 slices_S2048x16_o0_4_S2048x1))
      (feat P0 P1 P2 5 slices_S16_o5_S1 slices_S64x16_o0_5_S64x1 slices_S2048x16_o0_5_S2048x1))
      (feat P0 P1 P2 6 slices_S16_o6_S1 slices_S64x16_o0_6_S64x1 slices_S2048x16_o0_6_S2048x1))
      (feat P0 P1 P2 7 slices_S16_o7_S1 slices_S64x16_o0_7_S64x1 slices_S2048x16_o0_7_S2048x1))
      (feat P0 P1 P2 8 slices_S16_o8_S1 slices_S64x16_o0_8_S64x1 slices_S2048x16_o0_8_S2048x1))
      (feat P0 P1 P2 9 slices_S16_o9_S1 slices_S64x16_o0_9_S64x1 slices_S2048x16_o0_9_S2048x1))
      (feat P0 P1 P2 10 slices_S16_o10_S1 slices_S64x16_o0_10_S64x1 slices_S2048x16_o0_10_S2048x1))
      (feat P0 P1 P2 11 slices_S16_o11_S1 slices_S64x16_o0_11_S64x1 slices_S2048x16_o0_11_S2048x1))
      (feat P0 P1 P2 12 slices_S16_o12_S1 slices_S64x16_o0_12_S64x1 slices_S2048x16_o0_12_S2048x1))
      (feat P0 P1 P2 13 slices_S16_o13_S1 slices_S64x16_o0_13_S64x1 slices_S2048x16_o0_13_S2048x1))
      (feat P0 P1 P2 14 slices_S16_o14_S1 slices_S64x16_o0_14_S64x1 slices_S2048x16_o0_14_S2048x1))
      (feat P0 P1 P2 15 slices_S16_o15_S1 slices_S64x16_o0_15_S64x1 slices_S2048x16_o0_15_S2048x1))

/-- The value the body stores into the distances' block is that accumulator with a leading unit axis put in front. -/
theorem stored_eq :
    k0_pay12 (k0_pay1 P2) (k0_pay2 P2 P0) P1
      (k0_pay10 (k0_pay1 P2) (k0_pay2 P2 P0) P1
        (k0_pay7 (k0_pay1 P2) (k0_pay2 P2 P0) P1 (k0_pay4 P2 P0 P1) (k0_pay5 P2 P0) (k0_pay6 P2 P1))
        (k0_pay8 (k0_pay1 P2)) (k0_pay9 P1))
      (k0_pay11 (k0_pay1 P2) (k0_pay2 P2 P0) P1)
    = shapeCast S1x2048x64 (accAll P0 P1 P2) shapeCasts_S2048x64_S1x2048x64 := rfl

/-- The accumulator at row `r` and centre `k` is zero plus the sum over the features of the squared differences. -/
theorem accAll_apply (r : Fin 2048) (k : Fin 64) :
    accAll P0 P1 P2 (ix2 r k)
      = 0 + ∑ d : Fin 16, (k0_pay2 P2 P0 (ix2 r d) - k0_pay1 P2 (ix1 d) * P1 (ix2 k d))
            * (k0_pay2 P2 P0 (ix2 r d) - k0_pay1 P2 (ix1 d) * P1 (ix2 k d)) := by
  unfold accAll feat
  simp only [addf_apply, broadcast_apply]
  rw [featTerm_apply 0 (by decide),
    featTerm_apply 1 (by decide),
    featTerm_apply 2 (by decide),
    featTerm_apply 3 (by decide),
    featTerm_apply 4 (by decide),
    featTerm_apply 5 (by decide),
    featTerm_apply 6 (by decide),
    featTerm_apply 7 (by decide),
    featTerm_apply 8 (by decide),
    featTerm_apply 9 (by decide),
    featTerm_apply 10 (by decide),
    featTerm_apply 11 (by decide),
    featTerm_apply 12 (by decide),
    featTerm_apply 13 (by decide),
    featTerm_apply 14 (by decide),
    featTerm_apply 15 (by decide)]
  have hzero : (FloatOps.ofBits .f32 0x00000000#32 : Ideal .f32) = 0 := Ideal.ofBits_zero_f32
  rw [hzero]
  exact chain_eq_sum fun d => (k0_pay2 P2 P0 (ix2 r d) - k0_pay1 P2 (ix1 d) * P1 (ix2 k d))
            * (k0_pay2 P2 P0 (ix2 r d) - k0_pay1 P2 (ix1 d) * P1 (ix2 k d))

/-! ## The two output blocks after the body -/

theorem hz3 : (![0, 0, 0] : Fin 3 → Nat) = fun _ => 0 := funext fun a => by fin_cases a <;> rfl
theorem hz2 : (![0, 0] : Fin 2 → Nat) = fun _ => 0 := funext fun a => by fin_cases a <;> rfl

/-- The distances' block at `(·, r, k)`: zero plus the sum over the features `d` of
    `(x0 (0, r, d) · x2 (0, d) − x2 (0, d) · x1 (k, d))²`. -/
theorem distBlock_apply (x0 : Vec Ideal S1x2048x16 .f32) (x1 : Vec Ideal S64x16 .f32) (x2 : Vec Ideal S1x16 .f32)
    (u : Fin 1) (r : Fin 2048) (k : Fin 64) :
    out0_3 (F := Ideal) x0 x1 x2 (ix3 u r k)
      = 0 + ∑ d : Fin 16, (x0 (ix3 (0 : Fin 1) r d) * x2 (ix2 (0 : Fin 1) d) - x2 (ix2 (0 : Fin 1) d) * x1 (ix2 k d))
            * (x0 (ix3 (0 : Fin 1) r d) * x2 (ix2 (0 : Fin 1) d) - x2 (ix2 (0 : Fin 1) d) * x1 (ix2 k d)) := by
  unfold out0_3
  rw [View.canon_unit_zero hz3]
  simp only [View.ld_unit_zero (S := S1x16) hz2, View.ld_unit_zero (S := S1x2048x16) hz3,
    View.ld_unit_zero (S := S64x16) hz2]
  rw [stored_eq, shapeCast_ab_1ab_apply, accAll_apply]
  simp only [scaledRows_apply, scale_apply]

/-- The scaled rows' block at `(·, r, d)`: `x0 (0, r, d) · x2 (0, d)`. -/
theorem scaledBlock_apply (x0 : Vec Ideal S1x2048x16 .f32) (x1 : Vec Ideal S64x16 .f32) (x2 : Vec Ideal S1x16 .f32)
    (u : Fin 1) (r : Fin 2048) (d : Fin 16) :
    out0_4 (F := Ideal) x0 x1 x2 (ix3 u r d) = x0 (ix3 (0 : Fin 1) r d) * x2 (ix2 (0 : Fin 1) d) := by
  unfold out0_4
  rw [View.canon_unit_zero hz3]
  simp only [View.ld_unit_zero (S := S1x16) hz2, View.ld_unit_zero (S := S1x2048x16) hz3]
  unfold k0_pay3
  rw [shapeCast_ab_1ab_apply, scaledRows_apply]

end Cert.KernelIdeal.Block

end
-- ==== Proof.RbfLayer.lean ====
/-
  The layer's two results as functions of its three arguments, index by index, on the extended reals.

  Arguments: the points `x : [4, 16384, 16]` (batch, point, feature), the centres `cen : [64, 16]` (centre, feature)
  and the per-feature scale `sc : [1, 1, 16, 1]`, of which only the third coordinate matters. Write `s d = sc (0, 0, d, 0)`.
  • `scaledPoints x sc (b, n, d) = x (b, n, d) · s d`;
  • `sqDistances x cen sc (b, n, k) = 0 + ∑ d, (x (b, n, d) · s d − s d · cen (k, d))²`: the squared distance from the
    scaled point to the scaled centre `k`. The leading `0` is the sum's starting value, kept as both programs have it.
-/
import Idealize.ShloMosaic.Lib.ValueIdx
import Idealize.ShloMosaic.PureOps.Ideal.Laws

noncomputable section

open scoped BigOperators

namespace Cert.RbfLayer

open Idealize.ShloMosaic Idealize.ShloMosaic.ValueIdx

/-- The scale of feature `d`. -/
abbrev scaleAt (sc : FVec Ideal ⟨4, ![1, 1, 16, 1]⟩ .f32) (d : Fin 16) : Ideal .f32 :=
  sc (ix4 (0 : Fin 1) (0 : Fin 1) d (0 : Fin 1))

/-- Every point scaled feature by feature. -/
def scaledPoints (x : FVec Ideal ⟨3, ![4, 16384, 16]⟩ .f32) (sc : FVec Ideal ⟨4, ![1, 1, 16, 1]⟩ .f32) :
    FVec Ideal ⟨3, ![4, 16384, 16]⟩ .f32 :=
  fun i => x (ix3 (i 0 : Fin 4) (i 1 : Fin 16384) (i 2 : Fin 16)) * scaleAt sc (i 2 : Fin 16)

/-- The squared distance from every scaled point to every scaled centre. -/
def sqDistances (x : FVec Ideal ⟨3, ![4, 16384, 16]⟩ .f32) (cen : FVec Ideal ⟨2, ![64, 16]⟩ .f32)
    (sc : FVec Ideal ⟨4, ![1, 1, 16, 1]⟩ .f32) : FVec Ideal ⟨3, ![4, 16384, 64]⟩ .f32 :=
  fun i => 0 + ∑ d : Fin 16,
    (x (ix3 (i 0 : Fin 4) (i 1 : Fin 16384) d) * scaleAt sc d - scaleAt sc d * cen (ix2 (i 2 : Fin 64) d))
    * (x (ix3 (i 0 : Fin 4) (i 1 : Fin 16384) d) * scaleAt sc d - scaleAt sc d * cen (ix2 (i 2 : Fin 64) d))

end Cert.RbfLayer

end
-- ==== Proof.KernelArray.lean ====
/-
  From blocks to whole arrays: after the run, the kernel's two result arrays are the layer's functions
  (`Cert.RbfLayer`) of its three arguments.

  The grid has 4 × 8 points; point `t` is batch `t / 8` and tile `t % 8` of 2048 consecutive points. At point `t` the
  body loads rows `(t / 8, (t % 8) · 2048 + r, ·)` of the points' array, all the centres, and the one scale row — which
  the host laid out beforehand by flattening the `[1, 1, 16, 1]` scale argument to `[16]` and then to `[1, 16]` — and
  writes back the same rows of the two results. A block coordinate is always (block index) × (block extent) + (the
  coordinate inside the block). The body's two blocks (`Cert.KernelIdeal.Block`) read at these coordinates are the
  layer's functions restricted to the block; every index of a result array lies in the block of the point
  `8 · batch + point / 2048`, so the blocks cover the arrays and each array is the function itself.
-/
import proofs.«138917_j71038759076230_2_alg».proof.Proof.Gen.KernelIdeal.Value
import proofs.«138917_j71038759076230_2_alg».proof.Proof.KernelBlock
import proofs.«138917_j71038759076230_2_alg».proof.Proof.RbfLayer
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Value Cert.KernelIdeal.Block
open Idealize.ShloMosaic.ValueIdx Cert.RbfLayer

variable (m : (ℓ : Loc nD τ sig) → Buf (Elt Ideal) ℓ) (ρ : Dev nD → PrngReg)

/-! ## The block indices, decided over the 32 grid points -/

/-- Point `t` is batch `t / 8`, tile `t % 8`: the rows' window and both result windows sit at block
    `(t / 8, t % 8, 0)`; the centres and the scale row are always block `(0, 0)`. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-- Every (batch, tile) is some point's. -/
theorem idx_onto : ∀ (b : Fin 4) (n : Fin 8), ∃ t : Fin cfg0.N, t.val = 8 * b.val + n.val :=
  (by decide +kernel : ∀ (b : Fin 4) (n : Fin 8), ∃ t : Fin grid0.N, t.val = 8 * b.val + n.val)

/-! ## The scale row the region finds -/

/-- The host flattens the scale argument to `[16]` and lays that as one row `[1, 16]`. -/
theorem scaleRow_eq (c : Dev nD) :
    (V m c main_v1 : S1x16.Idx → Ideal .f32)
      = shapeCast S1x16 (shapeCast S16 (m ((c : Thread nD τ).loc main_arg2)) shapeCasts_S1x1x16x1_S16) shapeCasts_S16_S1x16 := by
  dsimp only [Gen.V, Gen.hostOps0]
  after_results
  rfl

/-- Its entry `d` is feature `d`'s scale. -/
theorem scaleRow_apply (c : Dev nD) (d : Fin 16) :
    (V m c main_v1 : S1x16.Idx → Ideal .f32) (ix2 (0 : Fin 1) d) = scaleAt (m ((c : Thread nD τ).loc main_arg2)) d := by
  rw [scaleRow_eq, shapeCast_a_1a_apply]
  refine shapeCast_apply (s := S1x1x16x1) (t := S16) _ shapeCasts_S1x1x16x1_S16 (ix1 d)
    (ix4 (0 : Fin 1) (0 : Fin 1) d (0 : Fin 1)) ?_
  rw [Shape.rowMajor_val_four, Shape.rowMajor_val_one]
  show ((0 * 1 + 0) * 16 + d.val) * 1 + 0 = d.val
  omega

/-! ## The three input blocks at a point, read at coordinates -/

/-- The rows' block at point `t`: entry `(·, r, d)` is the points' array at `(t / 8, (t % 8) · 2048 + r, d)`. -/
theorem rows_apply (c : Dev nD) (t : Fin cfg0.N) (y : S1x2048x16.Idx) (i : S4x16384x16.Idx)
    (h0 : (i 0).val = t.val / 8) (h1 : (i 1).val = t.val % 8 * 2048 + (y 1).val) (h2 : (i 2).val = (y 2).val) :
    (iblk m c 0 t : Vec Ideal S1x2048x16 .f32) y
      = (m ((c : Thread nD τ).loc main_arg0) : S4x16384x16.Idx → Ideal .f32) i := by
  obtain ⟨e0, e1, e2, -⟩ := idx_facts t
  unfold iblk
  rw [View.read_apply]
  show V m c main_arg0 _ = _
  rw [V_main_arg0]
  congr 1
  funext a; apply Fin.ext
  have hy0 : (y 0).val < 1 := (y 0).isLt
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 16 + 1 * (y 2).val = (i 2).val; omega

/-- The centres' block at any point is the centres' array. -/
theorem centres_apply (c : Dev nD) (t : Fin cfg0.N) (y i : S64x16.Idx)
    (h0 : (i 0).val = (y 0).val) (h1 : (i 1).val = (y 1).val) :
    (iblk m c 1 t : Vec Ideal S64x16 .f32) y = (m ((c : Thread nD τ).loc main_arg1) : S64x16.Idx → Ideal .f32) i := by
  obtain ⟨-, -, -, e0, e1, -⟩ := idx_facts t
  unfold iblk
  rw [View.read_apply]
  show V m c main_arg1 _ = _
  rw [V_main_arg1]
  congr 1
  funext a; apply Fin.ext
  match a with
  | ⟨0, _⟩ => show win0_1.index t (0 : Fin 2) * 64 + 1 * (y 0).val = (i 0).val; omega
  | ⟨1, _⟩ => show win0_1.index t (1 : Fin 2) * 16 + 1 * (y 1).val = (i 1).val; omega

/-- The scale's block at any point is the scale row, whose entry `d` is feature `d`'s scale. -/
theorem scale_apply (c : Dev nD) (t : Fin cfg0.N) (d : Fin 16) :
    (iblk m c 2 t : Vec Ideal S1x16 .f32) (ix2 (0 : Fin 1) d) = scaleAt (m ((c : Thread nD τ).loc main_arg2)) d := by
  obtain ⟨-, -, -, -, -, e0, e1, -⟩ := idx_facts t
  rw [← scaleRow_apply m c d]
  unfold iblk
  rw [View.read_apply]
  show V m c main_v1 _ = _
  congr 1
  funext a; apply Fin.ext
  match a with
  | ⟨0, _⟩ => show win0_2.index t (0 : Fin 2) * 1 + 1 * 0 = 0; omega
  | ⟨1, _⟩ => show win0_2.index t (1 : Fin 2) * 16 + 1 * d.val = d.val; omega

/-! ## What each point writes back -/

/-- Point `t` writes back block `t` of the squared distances. -/
theorem flushedDist_eq (c : Dev nD) (t : Fin cfg0.N) :
    (dats m 0 c).flushed 3 t = ((cfg0.win 3).blk t).view.read (Elt Ideal)
      (sqDistances (m ((c : Thread nD τ).loc main_arg0)) (m ((c : Thread nD τ).loc main_arg1))
        (m ((c : Thread nD τ).loc main_arg2))) := by
  rw [Value.flushed3]
  obtain ⟨-, -, -, -, -, -, -, e0, e1, e2, -⟩ := idx_facts t
  funext j
  have hj0 : (j 0).val < 1 := (j 0).isLt
  have hj1 : (j 1).val < 2048 := (j 1).isLt
  have hj2 : (j 2).val < 64 := (j 2).isLt
  show out0_3 (F := Ideal) (iblk m c 0 t) (iblk m c 1 t) (iblk m c 2 t) j
    = sqDistances _ _ _ (((cfg0.win 3).blk t).view.emb j)
  refine ((congrArg (out0_3 (F := Ideal) (iblk m c 0 t) (iblk m c 1 t) (iblk m c 2 t)) (eq_ix3 j)).trans
    (distBlock_apply (iblk m c 0 t) (iblk m c 1 t) (iblk m c 2 t) (j 0) (j 1) (j 2))).trans ?_
  unfold sqDistances
  refine congrArg (0 + ·) (Finset.sum_congr rfl fun d _ => ?_)
  have hr := rows_apply m c t (ix3 (0 : Fin 1) (j 1 : Fin 2048) d)
    (ix3 ((((cfg0.win 3).blk t).view.emb j) 0 : Fin 4) ((((cfg0.win 3).blk t).view.emb j) 1 : Fin 16384) d)
    (by show win0_3.index t (0 : Fin 3) * 1 + 1 * (j 0).val = t.val / 8; omega)
    (by show win0_3.index t (1 : Fin 3) * 2048 + 1 * (j 1).val = t.val % 8 * 2048 + (j 1).val; omega)
    rfl
  have hc := centres_apply m c t (ix2 (j 2 : Fin 64) d) (ix2 ((((cfg0.win 3).blk t).view.emb j) 2 : Fin 64) d)
    (by show win0_3.index t (2 : Fin 3) * 64 + 1 * (j 2).val = (j 2).val; omega) rfl
  have hs := scale_apply m c t d
  rw [hr, hc, hs]

/-- Point `t` writes back block `t` of the scaled points. -/
theorem flushedScaled_eq (c : Dev nD) (t : Fin cfg0.N) :
    (dats m 0 c).flushed 4 t = ((cfg0.win 4).blk t).view.read (Elt Ideal)
      (scaledPoints (m ((c : Thread nD τ).loc main_arg0)) (m ((c : Thread nD τ).loc main_arg2))) := by
  rw [Value.flushed4]
  obtain ⟨-, -, -, -, -, -, -, -, -, -, e0, e1, e2⟩ := idx_facts t
  funext j
  have hj0 : (j 0).val < 1 := (j 0).isLt
  have hj1 : (j 1).val < 2048 := (j 1).isLt
  have hj2 : (j 2).val < 16 := (j 2).isLt
  show out0_4 (F := Ideal) (iblk m c 0 t) (iblk m c 1 t) (iblk m c 2 t) j
    = scaledPoints _ _ (((cfg0.win 4).blk t).view.emb j)
  refine ((congrArg (out0_4 (F := Ideal) (iblk m c 0 t) (iblk m c 1 t) (iblk m c 2 t)) (eq_ix3 j)).trans
    (scaledBlock_apply (iblk m c 0 t) (iblk m c 1 t) (iblk m c 2 t) (j 0) (j 1) (j 2))).trans ?_
  unfold scaledPoints
  have hr := rows_apply m c t (ix3 (0 : Fin 1) (j 1 : Fin 2048) (j 2 : Fin 16))
    (ix3 ((((cfg0.win 4).blk t).view.emb j) 0 : Fin 4) ((((cfg0.win 4).blk t).view.emb j) 1 : Fin 16384)
      ((((cfg0.win 4).blk t).view.emb j) 2 : Fin 16))
    (by show win0_4.index t (0 : Fin 3) * 1 + 1 * (j 0).val = t.val / 8; omega)
    (by show win0_4.index t (1 : Fin 3) * 2048 + 1 * (j 1).val = t.val % 8 * 2048 + (j 1).val; omega)
    (by show win0_4.index t (2 : Fin 3) * 16 + 1 * (j 2).val = (j 2).val; omega)
  have hd : ((((cfg0.win 4).blk t).view.emb j) 2 : Fin 16) = (j 2 : Fin 16) :=
    Fin.ext (by show win0_4.index t (2 : Fin 3) * 16 + 1 * (j 2).val = (j 2).val; omega)
  have hs := scale_apply m c t (j 2 : Fin 16)
  rw [hr, hs, hd]

/-! ## The blocks cover the result arrays -/

/-- An index of the distances' array is in point `t`'s block iff each coordinate is in the block's range. -/
theorem mem_blkDist (t : Fin cfg0.N) (i : S4x16384x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v2_0).slice (win0_3.rect t)).set ↔ _
  rw [View.set_slice_whole, Rect.mem_set_unit]
  exact Iff.rfl

/-- The same for the scaled points' array. -/
theorem mem_blkScaled (t : Fin cfg0.N) (i : S4x16384x16.Idx) :
    i ∈ ((cfg0.win 4).blk t).view.set ↔ ∀ a : Fin 3, win0_4.index t a * S1x2048x16.size a ≤ (i a).val
      ∧ (i a).val < win0_4.index t a * S1x2048x16.size a + S1x2048x16.size a := by
  show i ∈ ((View.whole main_v2_1).slice (win0_4.rect t)).set ↔ _
  rw [View.set_slice_whole, Rect.mem_set_unit]
  exact Iff.rfl

/-- Index `(b, n, k)` of the distances lies in the block of point `8 b + n / 2048`. -/
theorem coverDist (i : S4x16384x64.Idx) :
    ∃ t : Fin cfg0.N, (cfg0.win 3).flush t = true ∧ i ∈ ((cfg0.win 3).blk t).view.set := by
  have hi0 : (i 0).val < 4 := (i 0).isLt
  have hi1 : (i 1).val < 16384 := (i 1).isLt
  have hi2 : (i 2).val < 64 := (i 2).isLt
  obtain ⟨t, ht⟩ := idx_onto ⟨(i 0).val, hi0⟩ ⟨(i 1).val / 2048, by omega⟩
  have ht' : t.val = 8 * (i 0).val + (i 1).val / 2048 := ht
  obtain ⟨-, -, -, -, -, -, -, e0, e1, e2, -⟩ := idx_facts t
  refine ⟨t, flush0_3 t, ?_⟩
  rw [mem_blkDist]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 64 ≤ (i 2).val ∧ (i 2).val < win0_3.index t (2 : Fin 3) * 64 + 64
    omega

/-- Index `(b, n, d)` of the scaled points lies in the block of point `8 b + n / 2048`. -/
theorem coverScaled (i : S4x16384x16.Idx) :
    ∃ t : Fin cfg0.N, (cfg0.win 4).flush t = true ∧ i ∈ ((cfg0.win 4).blk t).view.set := by
  have hi0 : (i 0).val < 4 := (i 0).isLt
  have hi1 : (i 1).val < 16384 := (i 1).isLt
  have hi2 : (i 2).val < 16 := (i 2).isLt
  obtain ⟨t, ht⟩ := idx_onto ⟨(i 0).val, hi0⟩ ⟨(i 1).val / 2048, by omega⟩
  have ht' : t.val = 8 * (i 0).val + (i 1).val / 2048 := ht
  obtain ⟨-, -, -, -, -, -, -, -, -, -, e0, e1, e2⟩ := idx_facts t
  refine ⟨t, flush0_4 t, ?_⟩
  rw [mem_blkScaled]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 2048 ≤ (i 1).val ∧ (i 1).val < win0_4.index t (1 : Fin 3) * 2048 + 2048
    omega
  | ⟨2, _⟩ =>
    show win0_4.index t (2 : Fin 3) * 16 ≤ (i 2).val ∧ (i 2).val < win0_4.index t (2 : Fin 3) * 16 + 16
    omega

/-! ## The result arrays, and the run -/

/-- After the run the distances' array is `sqDistances` of the arguments. -/
theorem finalDist (c : Dev nD) :
    (dats m 0 c).arrAt 3 cfg0.N
      = sqDistances (m ((c : Thread nD τ).loc main_arg0)) (m ((c : Thread nD τ).loc main_arg1))
          (m ((c : Thread nD τ).loc main_arg2)) :=
  (dats m 0 c).arrAt_eq_of_cover 3 _ (fun t _ => flushedDist_eq m c t) coverDist

/-- After the run the scaled points' array is `scaledPoints` of the arguments. -/
theorem finalScaled (c : Dev nD) :
    (dats m 0 c).arrAt 4 cfg0.N
      = scaledPoints (m ((c : Thread nD τ).loc main_arg0)) (m ((c : Thread nD τ).loc main_arg2)) :=
  (dats m 0 c).arrAt_eq_of_cover 4 _ (fun t _ => flushedScaled_eq m c t) coverScaled

/-- The kernel's run, read: every weakly fair execution ends with the two result arrays at the layer's functions of
    the arguments, the arguments unchanged. -/
theorem run : θ_run defs (onTc (τ := τ) (main (F := Ideal))) ⟨m, fun _ => 0, ρ⟩ fun r => ∀ c : Dev nD,
      r.2.mem ((c : Thread nD τ).loc main_v2_0)
        = sqDistances (m ((c : Thread nD τ).loc main_arg0)) (m ((c : Thread nD τ).loc main_arg1))
            (m ((c : Thread nD τ).loc main_arg2))
      ∧ r.2.mem ((c : Thread nD τ).loc main_v2_1)
        = scaledPoints (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalDist m c), (h c).2.1.trans (finalScaled m c), (h c).2.2⟩)
    (Value.run_blocks m ρ)

end Cert.KernelIdeal.Arrays

end
-- ==== Proof.ReferenceValue.lean ====
/-
  The reference's two results are the layer's functions (`Cert.RbfLayer`) of its arguments.

  The reference scales the points, forms the 16 × 64 matrix of scaled centres `s d · cen (k, d)`, spreads both over
  (batch, point, feature, centre), subtracts, squares and sums over the feature axis starting from zero. Read at an
  index through the generated stage lemmas, each spread or re-laid operand is read at a composed index; the composed
  indices are identified with plain coordinates below, after which both sides are the same expression.
-/
import proofs.«138917_j71038759076230_2_alg».proof.Proof.Gen.ReferenceIdeal.Read
import proofs.«138917_j71038759076230_2_alg».proof.Proof.RbfLayer

noncomputable section

open scoped BigOperators

namespace Cert.ReferenceIdeal.RefValue

open Cert.ReferenceIdeal Cert.ReferenceIdeal.Read Idealize.ShloMosaic Idealize.ShloMosaic.ValueIdx Cert.RbfLayer

variable (x0 : (⟨S4x16384x16, .f32⟩ : BufTy).Contents (Elt Ideal)) (x1 : (⟨S64x16, .f32⟩ : BufTy).Contents (Elt Ideal))
  (x2 : (⟨S1x1x16x1, .f32⟩ : BufTy).Contents (Elt Ideal))

/-- The scale read through the reshape and the two spreads over the points: feature `i 2`'s scale. -/
theorem scale_idx (i : S4x16384x16.Idx) :
    idx_main_v0 (idx_main_v1 (idx_main_v2 i)) = ix4 (0 : Fin 1) (0 : Fin 1) (i 2 : Fin 16) (0 : Fin 1) := by
  funext a; apply Fin.ext
  match a with
  | ⟨0, _⟩ => rfl
  | ⟨1, _⟩ => rfl
  | ⟨2, _⟩ => show (i 2).val / 1 % 16 = (i 2).val; have h2 : (i 2).val < 16 := (i 2).isLt; omega
  | ⟨3, _⟩ => rfl

/-- The reference's scaled points are `scaledPoints`. -/
theorem scaled_eq : val_main_v3 (F := Ideal) x0 x2 = scaledPoints x0 x2 := by
  funext i
  rw [val_main_v3_apply, val_main_v2_apply, val_main_v1_apply, val_main_v0_apply, scale_idx]
  exact congrArg (fun z => x0 z * x2 (ix4 (0 : Fin 1) (0 : Fin 1) (i 2 : Fin 16) (0 : Fin 1))) (eq_ix3 i)

/-- Term `k` of the sum at `i` reads the points at `(i 0, i 1, k)`; -/
theorem point_idx (i : S4x16384x64.Idx) (k : Fin 16) :
    idx_main_v8 (idx_main_v10 (idx_main_v14 i k)) = ix3 (i 0 : Fin 4) (i 1 : Fin 16384) k := by
  funext a; apply Fin.ext
  match a with
  | ⟨0, _⟩ => rfl
  | ⟨1, _⟩ => rfl
  | ⟨2, _⟩ => rfl

/-- the scale of feature `k`, both the point's own (through the spreads over the points) and the scaled centres'
    (through the 16 × 64 matrix), the two composed indices being the same coordinates; -/
theorem centreScale_idx (i : S4x16384x64.Idx) (k : Fin 16) :
    idx_main_v0 (idx_main_v4 (idx_main_v6 (idx_main_v9 (idx_main_v11 (idx_main_v14 i k)))))
      = ix4 (0 : Fin 1) (0 : Fin 1) k (0 : Fin 1) := by
  funext a; apply Fin.ext
  match a with
  | ⟨0, _⟩ => rfl
  | ⟨1, _⟩ => rfl
  | ⟨2, _⟩ => show k.val / 1 % 16 = k.val; have hk : k.val < 16 := k.isLt; omega
  | ⟨3, _⟩ => rfl

/-- and whose centre entry, through the transpose, is `cen (i 2, k)`. -/
theorem centre_idx (i : S4x16384x64.Idx) (k : Fin 16) :
    idx_main_v5 (idx_main_v9 (idx_main_v11 (idx_main_v14 i k))) = ix2 (i 2 : Fin 64) k := by
  funext a; apply Fin.ext
  match a with
  | ⟨0, _⟩ => rfl
  | ⟨1, _⟩ => rfl

/-- Term `k` of the sum at `i`: the squared difference of the scaled point's feature `k` and the scaled centre's. -/
theorem term_eq (i : S4x16384x64.Idx) (k : Fin 16) :
    val_main_v13 (F := Ideal) x0 x1 x2 (idx_main_v14 i k)
      = (x0 (ix3 (i 0 : Fin 4) (i 1 : Fin 16384) k) * scaleAt x2 k - scaleAt x2 k * x1 (ix2 (i 2 : Fin 64) k))
        * (x0 (ix3 (i 0 : Fin 4) (i 1 : Fin 16384) k) * scaleAt x2 k - scaleAt x2 k * x1 (ix2 (i 2 : Fin 64) k)) := by
  rw [val_main_v13_apply, val_main_v12_apply, val_main_v10_apply, val_main_v8_apply, val_main_v3_apply,
    val_main_v2_apply, val_main_v1_apply, val_main_v0_apply, val_main_v11_apply, val_main_v9_apply, val_main_v7_apply,
    val_main_v6_apply, val_main_v4_apply, val_main_v0_apply, val_main_v5_apply, point_idx, centreScale_idx, centre_idx]
  rfl

/-- The reference's distances are `sqDistances`: the sum's starting value is the zero word, and term by term the
    summands agree. -/
theorem dist_eq : val_main_v14 (F := Ideal) x0 x1 x2 = sqDistances x0 x1 x2 := by
  funext i
  rw [val_main_v14_apply]
  have hzero : ∀ j, (val_main_cst (F := Ideal)) j = 0 := fun _ => Ideal.ofBits_zero_f32
  rw [hzero]
  exact congrArg (0 + ·) (Finset.sum_congr rfl fun k _ => term_eq x0 x1 x2 i k)

end Cert.ReferenceIdeal.RefValue

end
-- ==== Proof.lean ====
/-
  A radial-basis layer: pairwise squared distances between scaled points and scaled centres.

  Arguments: points `x : [4, 16384, 16]`, centres `cen : [64, 16]`, a per-feature scale `sc : [1, 1, 16, 1]`; write
  `s d = sc (0, 0, d, 0)`. Both programs return, in this order,
    O (b, n, k) = 0 + ∑ d, (x (b, n, d) · s d − s d · cen (k, d))²      and      H (b, n, d) = x (b, n, d) · s d.

  The kernel walks a 4 × 8 grid; each point loads 2048 rows of one batch, all centres and the scale row, stores the
  scaled rows, and builds its block of O by adding the sixteen features' squared differences one after another onto a
  zero matrix. The reference scales the points, forms the 16 × 64 matrix of scaled centres, spreads both over
  (batch, point, feature, centre), subtracts, squares and sums over the feature axis from zero.

  On the extended reals the two agree index by index: the summands are the same expression of the same entries, and
  sixteen terms added in turn onto zero are zero plus their sum because addition there is commutative and associative —
  the only law used, so the finiteness of the inputs is never needed. The modules:
  • Proof/SquaredDistance.lean — one feature's term read at (row, centre); the chain-of-sixteen law;
  • Proof/RbfLayer.lean — O and H as functions of the arguments;
  • Proof/KernelBlock.lean — what one grid point leaves in its two output blocks;
  • Proof/KernelArray.lean — the blocks cover the result arrays, so after the run the arrays are O and H;
  • Proof/ReferenceValue.lean — the reference's run terms are O and H.
  Each program's frame is its generated run; the idealization rewrote nothing, so `preserves` is trivial.
-/
import proofs.«138917_j71038759076230_2_alg».proof.Defs
import proofs.«138917_j71038759076230_2_alg».proof.Proof.Gen.Kernel
import proofs.«138917_j71038759076230_2_alg».proof.Proof.Gen.Kernel.Frame
import proofs.«138917_j71038759076230_2_alg».proof.Proof.Gen.KernelIdeal
import proofs.«138917_j71038759076230_2_alg».proof.Proof.Gen.KernelIdeal.Frame
import proofs.«138917_j71038759076230_2_alg».proof.Proof.Gen.KernelIdeal.Value
import proofs.«138917_j71038759076230_2_alg».proof.Proof.Gen.ReferenceIdeal
import proofs.«138917_j71038759076230_2_alg».proof.Proof.Gen.ReferenceIdeal.Run
import proofs.«138917_j71038759076230_2_alg».proof.Proof.Gen.ReferenceIdeal.Read
import proofs.«138917_j71038759076230_2_alg».proof.Proof.Gen.Pre_finite_inputs
import proofs.«138917_j71038759076230_2_alg».proof.Proof.KernelArray
import proofs.«138917_j71038759076230_2_alg».proof.Proof.ReferenceValue
import Idealize.ShloMosaic.Adequacy
import Idealize.ShloMosaic.Init

noncomputable section

namespace Cert.Proof

open Idealize.ShloMosaic Idealize.SL.Sem Cert.RbfLayer

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the three arguments, both programs end with the squared distances and the scaled
    points of those arguments: the kernel's arrays by its blocks covering them, the reference's by its run's terms. -/
theorem algebraic : Cert.algebraic_KernelIdeal_ReferenceIdeal := by
  intro m ρ m' ρ' _ hagree
  refine ⟨fun c => sqDistances (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => scaledPoints (m ((c.tc : Thread Cert.KernelIdeal.nD Cert.KernelIdeal.τ).loc Cert.KernelIdeal.main_arg0))
        (m ((c.tc : Thread Cert.KernelIdeal.nD Cert.KernelIdeal.τ).loc Cert.KernelIdeal.main_arg2)),
    Cert.KernelIdeal.Arrays.run m ρ, ?_⟩
  refine (θ_run Cert.ReferenceIdeal.defs _ _).mono (fun _ h c => ?_)
    (Cert.ReferenceIdeal.Value.run (F := Ideal) m' ρ')
  obtain ⟨a0, a1, a2⟩ := hagree c
  refine ⟨(h c).1.trans ?_, (h c).2.1.trans ?_, (h c).2.2⟩
  · rw [Cert.ReferenceIdeal.Read.val_main_v14_eq, Cert.ReferenceIdeal.RefValue.dist_eq, a0, a1, a2]
  · rw [Cert.ReferenceIdeal.Read.val_main_v3_eq, Cert.ReferenceIdeal.RefValue.scaled_eq, a0, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
